-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn {F : FTy → Type} [FloatOps F] (main_arg0 : FVec F S2x2048x1024 .f32) (main_arg1 : FVec F S2x2048x1024 .f32) (main_arg2 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  main_v13
-- ==== Kernel.lean ====
abbrev S2x2048x1024 : Shape := ⟨3, ![2, 2048, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 19
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .bf16⟩
  | .hbm, ⟨4, _⟩ => ⟨S2x2048x16x64, .bf16⟩
  | .hbm, ⟨5, _⟩ => ⟨S2x16x2048x64, .bf16⟩
  | .hbm, ⟨6, _⟩ => ⟨S32x2048x64, .bf16⟩
  | .hbm, ⟨7, _⟩ => ⟨S2x2048x1024, .bf16⟩
  | .hbm, ⟨8, _⟩ => ⟨S2x2048x16x64, .bf16⟩
  | .hbm, ⟨9, _⟩ => ⟨S2x16x2048x64, .bf16⟩
  | .hbm, ⟨10, _⟩ => ⟨S32x2048x64, .bf16⟩
  | .hbm, ⟨11, _⟩ => ⟨S2x2048x1024, .bf16⟩
  | .hbm, ⟨12, _⟩ => ⟨S2x2048x16x64, .bf16⟩
  | .hbm, ⟨13, _⟩ => ⟨S2x16x2048x64, .bf16⟩
  | .hbm, ⟨14, _⟩ => ⟨S32x2048x64, .bf16⟩
  | .hbm, ⟨15, _⟩ => ⟨S32x2048x64, .f32⟩
  | .hbm, ⟨16, _⟩ => ⟨S2x16x2048x64, .f32⟩
  | .hbm, ⟨17, _⟩ => ⟨S2x2048x16x64, .f32⟩
  | .hbm, ⟨18, _⟩ => ⟨S2x2048x1024, .f32⟩
  | .local _ .vmem, ⟨0, _⟩ => ⟨S1x1024x64, .bf16⟩
  | .local _ .vmem, ⟨1, _⟩ => ⟨S1x1024x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x1024x64, .f32⟩
  | .local _ .vmem, ⟨7, _⟩ => ⟨S1x1024x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .bf16 = 32 ∨ (Rect.block (s := S32x2048x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .bf16 = 32 ∨ (Rect.block (s := S32x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .bf16 = 32 ∨ (Rect.block (s := S32x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v3) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x16x64, .f32⟩
  | .hbm, ⟨4, _⟩ => ⟨S2x16x2048x64, .f32⟩
  | .hbm, ⟨5, _⟩ => ⟨S2x2048x16x64, .f32⟩
  | .hbm, ⟨6, _⟩ => ⟨S2x16x2048x64, .f32⟩
  | .hbm, ⟨7, _⟩ => ⟨S2x2048x16x64, .f32⟩
  | .hbm, ⟨8, _⟩ => ⟨S2x16x2048x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S_, .f32⟩
  | .hbm, ⟨19, _⟩ => ⟨S2x16x2048, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x64, .f32⟩
  | .hbm, ⟨31, _⟩ => ⟨S2x2048x16x64, .f32⟩
  | .hbm, ⟨32, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Softmax.lean ====
/-
  Softmax attention on one row, over the extended reals, in the two arrangements the two programs use.

  For one query row `a` (length E), keys `K` (J rows of length E), one value column `V` (length J) and a scale `c`:

  * the scores are `s j = ∑ e, (a e · c) · K j e` (the scale folded into the query) on one side and
    `s j = (∑ e, a e · K j e) · c` (the scale applied to the product) on the other;
  * with `m` the maximum of the scores and `p j = exp (s j − m)`, one side forms `(∑ j, p j · V j) / (∑ j, p j)`
    (divide once, after the weighted sum) and the other `∑ j, (p j / (0 + ∑ j', p j')) · V j` (normalise the
    weights first).

  On finite inputs everything is a real number: the scores agree because multiplication distributes over a finite
  sum of reals, the maximum of finitely many reals (at least one) is a real, every `p j` is a positive real so the
  normaliser is a positive real, and then division by it distributes over the weighted sum. None of these steps is
  valid at the infinities, which is why the statement is about real inputs.
-/
import Idealize.ShloMosaic.PureOps.Ideal.Laws

noncomputable section

open scoped BigOperators

namespace Cert.Attn

open Idealize.ShloMosaic

/-! ## The constants the two programs spell -/

/-- The pattern of `-∞` denotes the bottom of the extended reals. -/
theorem ofBits_negInf : Ideal.ofBits .f32 0xFF800000#32 = (⊥ : EReal) := by
  simp [Ideal.ofBits, Ideal.ieee]

/-- `1.0` denotes the real one. -/
theorem ofBits_one : Ideal.ofBits .f32 0x3F800000#32 = ((1 : ℝ) : EReal) := by
  simp [Ideal.ofBits, Ideal.ieee, -EReal.coe_mul]; norm_num

/-- `64.0` denotes the real sixty-four. -/
theorem ofBits_sixtyFour : Ideal.ofBits .f32 0x42800000#32 = ((64 : ℝ) : EReal) := by
  simp [Ideal.ofBits, Ideal.ieee, -EReal.coe_mul]; norm_num

/-- The sixteen-bit `0.125` denotes the real one eighth. -/
theorem ofBits_eighth : Ideal.ofBits .bf16 0x3E00#16 = ((1 / 8 : ℝ) : EReal) := by
  simp [Ideal.ofBits, Ideal.ieee, -EReal.coe_mul]; norm_num

/-- `1 / √64` is one eighth: sixty-four is the square of eight. -/
theorem one_div_sqrt_sixtyFour :
    Ideal.div (Ideal.ofBits .f32 0x3F800000#32) (Ideal.sqrt (Ideal.ofBits .f32 0x42800000#32)) = ((1 / 8 : ℝ) : EReal) := by
  have h8 : Real.sqrt 64 = 8 := by
    rw [show (64 : ℝ) = 8 ^ 2 by norm_num]; exact Real.sqrt_sq (by norm_num)
  rw [ofBits_one, ofBits_sixtyFour, Ideal.sqrt_coe, if_neg (by norm_num), h8,
    Ideal.div_coe (by norm_num : (8 : ℝ) ≠ 0), ← EReal.coe_mul, one_mul]

/-! ## Sums and maxima of reals inside the extended reals -/

variable {E J : Type} [Fintype E] [Fintype J]

/-- A finite sum of reals, each read as an extended real, is the real sum read as an extended real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The maximum, starting from `-∞`, of finitely many reals — at least one — is a real. -/
theorem fold_max_coe (s : Finset J) (hs : s.Nonempty) (σ : J → ℝ) :
    ∃ μ : ℝ, s.fold max (⊥ : EReal) (fun j => (σ j : EReal)) = (μ : EReal) := by
  induction hs using Finset.Nonempty.cons_induction with
  | singleton a => exact ⟨σ a, by rw [Finset.fold_singleton]; exact max_eq_left bot_le⟩
  | cons a s h hs ih =>
    obtain ⟨μ, hμ⟩ := ih
    exact ⟨max (σ a) μ, by rw [Finset.fold_cons, hμ]; exact (EReal.coe_strictMono.monotone.map_max).symm⟩

/-! ## The two arrangements -/

/-- Divide once: `(∑ j, exp (s j − max s) · V j) / (∑ j, exp (s j − max s))`. -/
def divideOnce (s V : J → EReal) : EReal :=
  Ideal.div (∑ j, Ideal.exp (s j - Finset.univ.fold max ⊥ s) * V j) (∑ j, Ideal.exp (s j - Finset.univ.fold max ⊥ s))

/-- Normalise first: `∑ j, (exp (s j − max s) / (0 + ∑ j', exp (s j' − max s))) · V j`, the maximum taken once more against `-∞`. -/
def normaliseFirst (s V : J → EReal) : EReal :=
  ∑ j, Ideal.div (Ideal.exp (s j - max ⊥ (Finset.univ.fold max ⊥ s)))
      (0 + ∑ j', Ideal.exp (s j' - max ⊥ (Finset.univ.fold max ⊥ s))) * V j

/-- The scale folded into the query row. -/
def scoreScaledQuery (c : EReal) (a : E → EReal) (K : J → E → EReal) : J → EReal := fun j => ∑ e, (a e * c) * K j e

/-- The scale applied to the product. -/
def scoreScaledProduct (c : EReal) (a : E → EReal) (K : J → E → EReal) : J → EReal := fun j => (∑ e, a e * K j e) * c

/-- One output entry, scale in the query, divide once. -/
def rowDivideOnce (c : EReal) (a : E → EReal) (K : J → E → EReal) (V : J → EReal) : EReal :=
  divideOnce (scoreScaledQuery c a K) V

/-- One output entry, scale on the product, normalise first. -/
def rowNormaliseFirst (c : EReal) (a : E → EReal) (K : J → E → EReal) (V : J → EReal) : EReal :=
  normaliseFirst (scoreScaledProduct c a K) V

/-- On real inputs the two score functions are one real-valued function. -/
theorem score_eq (c : ℝ) (a : E → ℝ) (K : J → E → ℝ) :
    scoreScaledQuery (c : EReal) (fun e => (a e : EReal)) (fun j e => (K j e : EReal))
      = (fun j => (((∑ e, a e * K j e) * c : ℝ) : EReal))
    ∧ scoreScaledProduct (c : EReal) (fun e => (a e : EReal)) (fun j e => (K j e : EReal))
      = (fun j => (((∑ e, a e * K j e) * c : ℝ) : EReal)) := by
  constructor
  · funext j
    unfold scoreScaledQuery
    simp only [← EReal.coe_mul]
    rw [coe_sum, Finset.sum_mul]
    exact congrArg _ (Finset.sum_congr rfl fun e _ => by ring)
  · funext j
    unfold scoreScaledProduct
    simp only [← EReal.coe_mul]
    rw [coe_sum, ← EReal.coe_mul]

/-- On real scores and values (at least one key) dividing once and normalising first give one number. -/
theorem divideOnce_eq_normaliseFirst [Nonempty J] (σ V : J → ℝ) :
    divideOnce (fun j => (σ j : EReal)) (fun j => (V j : EReal))
      = normaliseFirst (fun j => (σ j : EReal)) (fun j => (V j : EReal)) := by
  obtain ⟨μ, hμ⟩ := fold_max_coe (Finset.univ : Finset J) Finset.univ_nonempty σ
  unfold divideOnce normaliseFirst
  rw [hμ, max_eq_right (bot_le : (⊥ : EReal) ≤ (μ : EReal))]
  have hexp : ∀ j, Ideal.exp ((σ j : EReal) - (μ : EReal)) = ((Real.exp (σ j - μ) : ℝ) : EReal) := fun j => by
    rw [← EReal.coe_sub, Ideal.exp_coe]
  simp only [hexp]
  have hL : 0 < ∑ j, Real.exp (σ j - μ) := Finset.sum_pos (fun j _ => Real.exp_pos _) Finset.univ_nonempty
  simp only [← EReal.coe_mul]
  rw [coe_sum, coe_sum, zero_add, Ideal.div_coe hL.ne', ← EReal.coe_mul]
  simp only [Ideal.div_coe hL.ne', ← EReal.coe_mul]
  rw [coe_sum, Finset.sum_mul]
  exact congrArg _ (Finset.sum_congr rfl fun j _ => by ring)

/-- One output entry on real inputs: the two programs' arrangements agree. -/
theorem rowDivideOnce_eq_rowNormaliseFirst [Nonempty J] (c : ℝ) (a : E → ℝ) (K : J → E → ℝ) (V : J → ℝ) :
    rowDivideOnce (c : EReal) (fun e => (a e : EReal)) (fun j e => (K j e : EReal)) (fun j => (V j : EReal))
      = rowNormaliseFirst (c : EReal) (fun e => (a e : EReal)) (fun j e => (K j e : EReal)) (fun j => (V j : EReal)) := by
  unfold rowDivideOnce rowNormaliseFirst
  rw [(score_eq c a K).1, (score_eq c a K).2]
  exact divideOnce_eq_normaliseFirst _ V

end Cert.Attn

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.Payload.lean ====
/-
  What the kernel body stores, read at one entry of the output block.

  The body loads a query block [1, 1024, 64], a key block [1, 2048, 64] and a value block [1, 2048, 64], and stores one
  [1, 1024, 64] block. Entry (0, r, d) of what it stores is, in the vocabulary of Softmax.lean, the "scale in the query,
  divide once" attention entry of query row r, all 2048 key rows and column d of the values, with the sixteen-bit
  0.125 as the scale: the scores are a 64-term product sum (the first matrix product, against the transposed keys),
  the row maximum and row sum run over the 2048 keys, the second matrix product is a 2048-term sum, and the last step
  divides by the row sum broadcast along the 64 columns.
-/
import proofs.«182169_j11029476016138_2_alg».proof.Proof.Gen.KernelIdeal.Skeleton
import proofs.«182169_j11029476016138_2_alg».proof.Proof.Softmax
import proofs.«182169_j11029476016138_2_alg».proof.Proof.LibKeepdims
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Idealize.ShloMosaic.Keepdims

/-! ## Unit-axis casts -/

/-- A [1, n, w] block viewed [n, w]: entry (r, e) is entry (0, r, e). -/
theorem dropLead_apply {n w : Nat} {α : Type} (x : (⟨3, ![1, n, w]⟩ : Shape).Idx → α)
    (h : (⟨3, ![1, n, w]⟩ : Shape).ShapeCasts ⟨2, ![n, w]⟩) (r : Fin n) (e : Fin w) :
    shapeCast ⟨2, ![n, w]⟩ x h (ix2 r e) = x (ix3 (0 : Fin 1) r e) :=
  shapeCast_apply x h (ix2 r e) (ix3 0 r e) (by
    rw [Shape.rowMajor_val_three, Shape.rowMajor_val_two]
    show (0 * n + r.val) * w + e.val = r.val * w + e.val
    rw [Nat.zero_mul, Nat.zero_add])

/-- An [n, w] result viewed [1, n, w]: entry (z, r, e) is entry (r, e). -/
theorem addLead_apply {n w : Nat} {α : Type} (x : (⟨2, ![n, w]⟩ : Shape).Idx → α)
    (h : (⟨2, ![n, w]⟩ : Shape).ShapeCasts ⟨3, ![1, n, w]⟩) (z : Fin 1) (r : Fin n) (e : Fin w) :
    shapeCast ⟨3, ![1, n, w]⟩ x h (ix3 z r e) = x (ix2 r e) :=
  shapeCast_apply x h (ix3 z r e) (ix2 r e) (by
    rw [Shape.rowMajor_val_three, Shape.rowMajor_val_two]
    show r.val * w + e.val = (z.val * n + r.val) * w + e.val
    have := z.isLt
    have hz : z.val = 0 := by omega
    rw [hz, Nat.zero_mul, Nat.zero_add])

/-! ## The two matrix products -/

/-- The free axis of each operand of the two products keeps the output's coordinate. -/
theorem lhs_scores_0 (i : S1024x2048.Idx) (q : dot_S1024x64_S64x2048_S1024x2048_1_0_0_1_n_n.contr.Idx) :
    (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem rhs_scores_1 (i : S1024x2048.Idx) (q : dot_S1024x64_S64x2048_S1024x2048_1_0_0_1_n_n.contr.Idx) :
    (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl
theorem lhs_weighted_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem rhs_weighted_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The scores: (query row r, scaled entry by entry) against key row j, a sum over the 64 features. -/
theorem scores_apply (v1 : FVec Ideal S1024x64 .bf16) (c : Ideal .bf16) (v5 : FVec Ideal S2048x64 .bf16)
    (r : Fin 1024) (j : Fin 2048) :
    matmul dot_S1024x64_S64x2048_S1024x2048_1_0_0_1_n_n none (mulf v1 (broadcast S1024x64 c))
        (transpose S64x2048 [1, 0] v5 transposes_S2048x64_p1_0_S64x2048) (constant S1024x2048 .f32 0x00000000#32) (ix2 r j)
      = ∑ e : Fin 64, (v1 (ix2 r e) * c) * v5 (ix2 j e) := by
  simp only [matmul]
  rw [Ideal.matmul_constant_zero_apply, ← Equiv.sum_comp (contrEquiv1 dot_S1024x64_S64x2048_S1024x2048_1_0_0_1_n_n 64 rfl rfl).symm]
  refine Finset.sum_congr rfl fun e _ => ?_
  have hk := contrEquiv1_symm_val dot_S1024x64_S64x2048_S1024x2048_1_0_0_1_n_n 64 rfl rfl e
  have el : dot_S1024x64_S64x2048_S1024x2048_1_0_0_1_n_n.lhsIdx (ix2 r j) ((contrEquiv1 dot_S1024x64_S64x2048_S1024x2048_1_0_0_1_n_n 64 rfl rfl).symm e) = ix2 r e :=
    funext fun a => Fin.ext (by
      match a with
      | ⟨0, _⟩ => exact lhs_scores_0 _ _
      | ⟨1, _⟩ => exact (dot_S1024x64_S64x2048_S1024x2048_1_0_0_1_n_n.lhsIdx_val_of_single rfl _ _).trans hk)
  have er : dot_S1024x64_S64x2048_S1024x2048_1_0_0_1_n_n.rhsIdx (ix2 r j) ((contrEquiv1 dot_S1024x64_S64x2048_S1024x2048_1_0_0_1_n_n 64 rfl rfl).symm e) = ix2 e j :=
    funext fun a => Fin.ext (by
      match a with
      | ⟨0, _⟩ => exact (dot_S1024x64_S64x2048_S1024x2048_1_0_0_1_n_n.rhsIdx_val_of_single rfl _ _).trans hk
      | ⟨1, _⟩ => exact rhs_scores_1 _ _)
  rw [el, er, mulf_apply, broadcast_apply,
    transpose_apply [1, 0] v5 transposes_S2048x64_p1_0_S64x2048 (ix2 e j) (ix2 j e) (fun b => match b with | ⟨0, _⟩ => rfl | ⟨1, _⟩ => rfl)]

/-- The weighted values: weights row r against value column d, a sum over the 2048 keys. -/
theorem weighted_apply (p : FVec Ideal S1024x2048 .bf16) (v7 : FVec Ideal S2048x64 .bf16) (r : Fin 1024) (d : Fin 64) :
    matmul dot_S1024x2048_S2048x64_S1024x64_1_0_0_1_n_n none p v7 (constant S1024x64 .f32 0x00000000#32) (ix2 r d)
      = ∑ j : Fin 2048, p (ix2 r j) * v7 (ix2 j d) := by
  simp only [matmul]
  rw [Ideal.matmul_constant_zero_apply, ← Equiv.sum_comp (contrEquiv1 dot_S1024x2048_S2048x64_S1024x64_1_0_0_1_n_n 2048 rfl rfl).symm]
  refine Finset.sum_congr rfl fun j _ => ?_
  have hk := contrEquiv1_symm_val dot_S1024x2048_S2048x64_S1024x64_1_0_0_1_n_n 2048 rfl rfl j
  have el : dot_S1024x2048_S2048x64_S1024x64_1_0_0_1_n_n.lhsIdx (ix2 r d) ((contrEquiv1 dot_S1024x2048_S2048x64_S1024x64_1_0_0_1_n_n 2048 rfl rfl).symm j) = ix2 r j :=
    funext fun a => Fin.ext (by
      match a with
      | ⟨0, _⟩ => exact lhs_weighted_0 _ _
      | ⟨1, _⟩ => exact (dot_S1024x2048_S2048x64_S1024x64_1_0_0_1_n_n.lhsIdx_val_of_single rfl _ _).trans hk)
  have er : dot_S1024x2048_S2048x64_S1024x64_1_0_0_1_n_n.rhsIdx (ix2 r d) ((contrEquiv1 dot_S1024x2048_S2048x64_S1024x64_1_0_0_1_n_n 2048 rfl rfl).symm j) = ix2 j d :=
    funext fun a => Fin.ext (by
      match a with
      | ⟨0, _⟩ => exact (dot_S1024x2048_S2048x64_S1024x64_1_0_0_1_n_n.rhsIdx_val_of_single rfl _ _).trans hk
      | ⟨1, _⟩ => exact rhs_weighted_1 _ _)
  rw [el, er]

/-! ## The row maximum -/

/-- The maximum over the second axis of a rank-2 vector, from the pattern of -∞, at row r: the maximum from ⊥ over
    the column coordinate. -/
theorem rowMax_apply (v : FVec Ideal S1024x2048 .f32) (h : S1024x2048.Reduces [1] S1024) (hφ : FKind.Formats .f32)
    (hacc : (0xFF800000#32 : BitVec 32) = 0xFF800000#32) (r : Fin 1024) :
    multiReduction .maximumf [1] S1024 v 0xFF800000#32 h hφ hacc (ix1 r)
      = (Finset.univ : Finset (Fin 2048)).fold max (⊥ : EReal) (fun j => v (ix2 r j)) := by
  refine (Ideal.multiReduction_maximumf_single v _ h hφ hacc (ix1 r)).trans ?_
  have hf : (v ∘ h.lift (ix1 r)) = fun j : Fin 2048 => v (ix2 r j) :=
    funext fun k => congrArg v (funext fun d => Fin.ext (by match d with | ⟨0, _⟩ => rfl | ⟨1, _⟩ => rfl))
  have hb : (FloatOps.ofBits (F := Ideal) .f32 0xFF800000#32 : EReal) = ⊥ := Cert.Attn.ofBits_negInf
  exact congrArg₂ (fun (b : EReal) (f : Fin 2048 → EReal) => (Finset.univ : Finset (Fin 2048)).fold max b f) hb hf

/-- The sum over the second axis, from the zero pattern, at row r: the sum over the column coordinate. -/
theorem rowSum_apply (v : FVec Ideal S1024x2048 .f32) (h : S1024x2048.Reduces [1] S1024) (hφ : FKind.Formats .f32)
    (hacc : (0x00000000#32 : BitVec 32) = 0x00000000#32) (r : Fin 1024) :
    multiReduction .add [1] S1024 v 0x00000000#32 h hφ hacc (ix1 r) = ∑ j : Fin 2048, v (ix2 r j) :=
  rowSum2_apply v _ h hφ hacc r

/-- The two reductions as the body spells them. -/
theorem rowMax_body (v : FVec Ideal S1024x2048 .f32) (r : Fin 1024) :
    multiReduction .maximumf [1] S1024 v 0xFF800000#32 reduces_S1024x2048_S1024 (.inl rfl) rfl (ix1 r)
      = (Finset.univ : Finset (Fin 2048)).fold max (⊥ : EReal) (fun j => v (ix2 r j)) :=
  rowMax_apply v _ _ rfl r
theorem rowSum_body (v : FVec Ideal S1024x2048 .f32) (r : Fin 1024) :
    multiReduction .add [1] S1024 v 0x00000000#32 reduces_S1024x2048_S1024 (.inl rfl) rfl (ix1 r) = ∑ j : Fin 2048, v (ix2 r j) :=
  rowSum_apply v _ _ rfl r

/-! ## The stored block at an entry -/

/-- The elementwise exponential at an index. -/
theorem exp_apply {s : Shape} {φ : FTy} (a : FVec Ideal s φ) (i : s.Idx) :
    Idealize.ShloMosaic.exp a i = Ideal.exp (a i) := rfl

/-- Entry (z, r, d) of the stored block is the attention entry of query row r and value column d of the loaded blocks. -/
theorem pay_apply (x0 : Vec Ideal S1x1024x64 .bf16) (x4 x6 : Vec Ideal S1x2048x64 .bf16) (z : Fin 1) (r : Fin 1024) (d : Fin 64) :
    k0_pay1 (F := Ideal) x0 x4 x6 (ix3 z r d)
      = Cert.Attn.rowDivideOnce (Ideal.ofBits .bf16 0x3E00#16) (fun e => x0 (ix3 (0 : Fin 1) r e))
          (fun j e => x4 (ix3 (0 : Fin 1) j e)) (fun j => x6 (ix3 (0 : Fin 1) j d)) := by
  unfold k0_pay1 Cert.Attn.rowDivideOnce Cert.Attn.divideOnce Cert.Attn.scoreScaledQuery
  simp only [addLead_apply, divf_apply, weighted_apply, truncf_apply, exp_apply, subf_apply, bcast_col_apply,
    cast_col_apply, dropLead_apply]
  rw [rowSum_body]
  simp only [exp_apply, subf_apply, bcast_col_apply, cast_col_apply]
  rw [rowMax_body]
  generalize hA : matmul (F := Ideal) (φ₁ := .bf16) (φ₂ := .bf16) dot_S1024x64_S64x2048_S1024x2048_1_0_0_1_n_n none _ _ _ = A
  have hS : ∀ j : Fin 2048, A (ix2 r j)
      = ∑ e : Fin 64, x0 (ix3 (0 : Fin 1) r e) * Ideal.ofBits .bf16 0x3E00#16 * x4 (ix3 (0 : Fin 1) j e) := fun j => by
    rw [← hA]
    refine (scores_apply _ _ _ r j).trans ?_
    simp only [dropLead_apply]
    rfl
  simp only [hS]

end Cert.KernelIdeal.Payload

end
-- ==== Proof.Spec.lean ====
/-
  Multi-head attention over [2, 2048, 1024] arrays, entry by entry.

  The 1024 columns are 16 heads of 64 features: column D belongs to head D / 64 and is feature D % 64 of it. Entry
  (b, s, D) of the result attends, within batch b and head D / 64, from query position s over all 2048 key positions,
  and reads feature D % 64 of the values — in the two arrangements of Softmax.lean. On finite inputs the two
  arrangements give one array.
-/
import proofs.«182169_j11029476016138_2_alg».proof.Proof.Softmax
import Idealize.ShloMosaic.Lib.ValueIdx

noncomputable section

open scoped BigOperators

namespace Cert.Attn

open Idealize.ShloMosaic Idealize.ShloMosaic.ValueIdx

/-- The [2, 2048, 1024] arrays. -/
abbrev Arr : Type := (⟨3, ![2, 2048, 1024]⟩ : Shape).Idx → EReal

/-- The head of a column, its feature within the head, and the column of a head's feature. -/
abbrev headOf (D : Fin 1024) : Fin 16 := ⟨D.val / 64, by have := D.isLt; omega⟩
abbrev featOf (D : Fin 1024) : Fin 64 := ⟨D.val % 64, Nat.mod_lt _ (by decide)⟩
abbrev colOf (h : Fin 16) (e : Fin 64) : Fin 1024 := ⟨h.val * 64 + e.val, by have := h.isLt; have := e.isLt; omega⟩

/-- Entry (b, s, D), scale in the query and one division at the end. -/
def entryDivideOnce (c : EReal) (q k v : Arr) (b : Fin 2) (s : Fin 2048) (D : Fin 1024) : EReal :=
  rowDivideOnce c (fun e : Fin 64 => q (ix3 b s (colOf (headOf D) e)))
    (fun (j : Fin 2048) (e : Fin 64) => k (ix3 b j (colOf (headOf D) e))) (fun j : Fin 2048 => v (ix3 b j D))

/-- Entry (b, s, D), scale on the product and the weights normalised first. -/
def entryNormaliseFirst (c : EReal) (q k v : Arr) (b : Fin 2) (s : Fin 2048) (D : Fin 1024) : EReal :=
  rowNormaliseFirst c (fun e : Fin 64 => q (ix3 b s (colOf (headOf D) e)))
    (fun (j : Fin 2048) (e : Fin 64) => k (ix3 b j (colOf (headOf D) e))) (fun j : Fin 2048 => v (ix3 b j D))

/-- The whole result array, first arrangement. -/
def attnDivideOnce (c : EReal) (q k v : Arr) : Arr := fun i => entryDivideOnce c q k v (i 0) (i 1) (i 2)

/-- The whole result array, second arrangement. -/
def attnNormaliseFirst (c : EReal) (q k v : Arr) : Arr := fun i => entryNormaliseFirst c q k v (i 0) (i 1) (i 2)

/-- On arrays of reals the two arrangements are one array. -/
theorem attn_eq (c : ℝ) (q k v : (⟨3, ![2, 2048, 1024]⟩ : Shape).Idx → ℝ) :
    attnDivideOnce (c : EReal) (fun i => (q i : EReal)) (fun i => (k i : EReal)) (fun i => (v i : EReal))
      = attnNormaliseFirst (c : EReal) (fun i => (q i : EReal)) (fun i => (k i : EReal)) (fun i => (v i : EReal)) := by
  funext i
  unfold attnDivideOnce attnNormaliseFirst entryDivideOnce entryNormaliseFirst
  exact rowDivideOnce_eq_rowNormaliseFirst c _ _ _

end Cert.Attn

end
-- ==== Proof.KernelArray.lean ====
/-
  The array the pipelined kernel leaves, as one function of the three [32, 2048, 64] head arrays it is launched on.

  The grid has 64 points; point t works on head t / 2 and on query rows (t % 2) · 1024 … (t % 2) · 1024 + 1023 of it: its
  query block and its output block are block (t / 2, t % 2, 0) of their arrays, its key and value blocks are block
  (t / 2, 0, 0) — the whole head. So entry (z, r, d) of what point t writes back is the attention entry of head t / 2,
  query row (t % 2) · 1024 + r and feature d, and since the 64 output blocks tile the [32, 2048, 64] array, the array ends
  holding, at (h, s, d), the attention entry of head h, query row s and feature d.
-/
import proofs.«182169_j11029476016138_2_alg».proof.Proof.Gen.KernelIdeal.Frame
import proofs.«182169_j11029476016138_2_alg».proof.Proof.Payload
import proofs.«182169_j11029476016138_2_alg».proof.Proof.Spec
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The [32, 2048, 64] head arrays. -/
abbrev Heads : Type := S32x2048x64.Idx → EReal

/-- Entry (h, s, d) of attention head by head: query row s of head h against all its key rows, feature d of its values. -/
def headsEntry (c : EReal) (Q K W : Heads) (h : Fin 32) (s : Fin 2048) (d : Fin 64) : EReal :=
  Cert.Attn.rowDivideOnce c (fun e : Fin 64 => Q (ix3 h s e)) (fun (j : Fin 2048) (e : Fin 64) => K (ix3 h j e))
    (fun j : Fin 2048 => W (ix3 h j d))

/-- The whole [32, 2048, 64] result. -/
def headsAttn (c : EReal) (Q K W : Heads) : Heads := fun j => headsEntry c Q K W (j 0) (j 1) (j 2)

theorem hz : (![0, 0, 0] : Fin 3 → Nat) = fun _ => 0 := funext fun a => by fin_cases a <;> rfl

/-- The printed index maps over the 64 grid points: queries and outputs move with (t / 2, t % 2), keys and values with t / 2. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

/-- The head and the query row a grid point's row r stands for. -/
abbrev headAt (t : Fin cfg0.N) : Fin 32 := ⟨t.val / 2, by have := t.isLt; have hN : cfg0.N = 64 := N_0; omega⟩
abbrev rowAt (t : Fin cfg0.N) (r : Fin 1024) : Fin 2048 := ⟨t.val % 2 * 1024 + r.val, by have := r.isLt; omega⟩

/-- The query block of point t: rows (t % 2) · 1024 + r of head t / 2. -/
theorem qblk_apply (c : Dev nD) (t : Fin cfg0.N) (r : Fin 1024) (e : Fin 64) :
    (iblk m c 0 t : Vec Ideal S1x1024x64 .bf16) (ix3 (0 : Fin 1) r e)
      = (V m c main_v3 : Heads) (ix3 (headAt t) (rowAt t r) e) := by
  obtain ⟨h0, h1, h2, -⟩ := idx_facts t
  unfold iblk
  rw [View.read_apply]
  show V m c main_v3 _ = V m c main_v3 _
  congr 1
  funext a
  apply Fin.ext
  match a with
  | ⟨0, _⟩ => show win0_0.index t 0 * 1 + 1 * 0 = t.val / 2; omega
  | ⟨1, _⟩ => show win0_0.index t 1 * 1024 + 1 * r.val = t.val % 2 * 1024 + r.val; omega
  | ⟨2, _⟩ => show win0_0.index t 2 * 64 + 1 * e.val = e.val; omega

/-- The key block of point t: all of head t / 2. -/
theorem kblk_apply (c : Dev nD) (t : Fin cfg0.N) (j : Fin 2048) (e : Fin 64) :
    (iblk m c 1 t : Vec Ideal S1x2048x64 .bf16) (ix3 (0 : Fin 1) j e)
      = (V m c main_v7 : Heads) (ix3 (headAt t) j e) := by
  obtain ⟨-, -, -, h0, h1, h2, -⟩ := idx_facts t
  unfold iblk
  rw [View.read_apply]
  show V m c main_v7 _ = V m c main_v7 _
  congr 1
  funext a
  apply Fin.ext
  match a with
  | ⟨0, _⟩ => show win0_1.index t 0 * 1 + 1 * 0 = t.val / 2; omega
  | ⟨1, _⟩ => show win0_1.index t 1 * 2048 + 1 * j.val = j.val; omega
  | ⟨2, _⟩ => show win0_1.index t 2 * 64 + 1 * e.val = e.val; omega

/-- The value block of point t: all of head t / 2. -/
theorem vblk_apply (c : Dev nD) (t : Fin cfg0.N) (j : Fin 2048) (e : Fin 64) :
    (iblk m c 2 t : Vec Ideal S1x2048x64 .bf16) (ix3 (0 : Fin 1) j e)
      = (V m c main_v11 : Heads) (ix3 (headAt t) j e) := by
  obtain ⟨-, -, -, -, -, -, h0, h1, h2, -⟩ := idx_facts t
  unfold iblk
  rw [View.read_apply]
  show V m c main_v11 _ = V m c main_v11 _
  congr 1
  funext a
  apply Fin.ext
  match a with
  | ⟨0, _⟩ => show win0_2.index t 0 * 1 + 1 * 0 = t.val / 2; omega
  | ⟨1, _⟩ => show win0_2.index t 1 * 2048 + 1 * j.val = j.val; omega
  | ⟨2, _⟩ => show win0_2.index t 2 * 64 + 1 * e.val = e.val; omega

/-- What point t writes back is block t of the head-by-head attention of the arrays the region finds. -/
theorem flushed_eq (c : Dev nD) (t : Fin cfg0.N) :
    (dats m 0 c).flushed 3 t = ((cfg0.win 3).blk t).view.read (Elt Ideal)
      (headsAttn (Ideal.ofBits .bf16 0x3E00#16) (V m c main_v3) (V m c main_v7) (V m c main_v11)) := by
  show (cfg0.win 3).cut (grid0.coords t) ((dats m 0 c).after 3 t) = _
  rw [after0_3]
  unfold out0_3
  rw [View.canon_unit_zero hz]
  simp only [View.ld_unit_zero (S := S1x1024x64) hz, View.ld_unit_zero (S := S1x2048x64) hz]
  funext y
  obtain ⟨z, r, d, rfl⟩ : ∃ (z : Fin 1) (r : Fin 1024) (d : Fin 64), y = ix3 z r d := ⟨y 0, y 1, y 2, eq_ix3 y⟩
  obtain ⟨-, -, -, -, -, -, -, -, -, h0, h1, h2⟩ := idx_facts t
  have hJ : ((cfg0.win 3).blk t).view.emb (ix3 z r d) = (ix3 (headAt t) (rowAt t r) d : S32x2048x64.Idx) := by
    funext a
    apply Fin.ext
    match a with
    | ⟨0, _⟩ => show win0_3.index t 0 * 1 + 1 * z.val = t.val / 2; have := z.isLt; omega
    | ⟨1, _⟩ => show win0_3.index t 1 * 1024 + 1 * r.val = t.val % 2 * 1024 + r.val; omega
    | ⟨2, _⟩ => show win0_3.index t 2 * 64 + 1 * d.val = d.val; omega
  show k0_pay1 (iblk m c 0 t) (iblk m c 1 t) (iblk m c 2 t) (ix3 z r d)
    = headsAttn _ (V m c main_v3) (V m c main_v7) (V m c main_v11) (((cfg0.win 3).blk t).view.emb (ix3 z r d))
  rw [hJ]
  refine (Payload.pay_apply _ _ _ z r d).trans ?_
  show _ = headsEntry _ (V m c main_v3) (V m c main_v7) (V m c main_v11) (headAt t) (rowAt t r) d
  unfold headsEntry
  simp only [qblk_apply, kblk_apply, vblk_apply]

/-- An index of the output array is in point t's block iff each coordinate is in the block's range. -/
theorem mem_blk (t : Fin cfg0.N) (i : S32x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v12).slice (win0_3.rect t)).set ↔ _
  rw [View.set_slice_whole, Rect.mem_set_unit]
  exact Iff.rfl

/-- Every index of the output array is in the block of the point of its head and its half of the rows. -/
theorem cover (i : S32x2048x64.Idx) : ∃ t : Fin cfg0.N, (cfg0.win 3).flush t = true ∧ i ∈ ((cfg0.win 3).blk t).view.set := by
  have hN : cfg0.N = 64 := N_0
  have i0 : (i 0).val < 32 := (i 0).isLt
  have i1 : (i 1).val < 2048 := (i 1).isLt
  have i2 : (i 2).val < 64 := (i 2).isLt
  refine ⟨⟨(i 0).val * 2 + (i 1).val / 1024, by omega⟩, flush0_3 _, ?_⟩
  rw [mem_blk]
  obtain ⟨-, -, -, -, -, -, -, -, -, h0, h1, h2⟩ := idx_facts ⟨(i 0).val * 2 + (i 1).val / 1024, by omega⟩
  intro a
  match a with
  | ⟨0, _⟩ =>
    show win0_3.index _ 0 * 1 ≤ (i 0).val ∧ (i 0).val < win0_3.index _ 0 * 1 + 1
    rw [h0]; show ((i 0).val * 2 + (i 1).val / 1024) / 2 * 1 ≤ (i 0).val ∧ (i 0).val < ((i 0).val * 2 + (i 1).val / 1024) / 2 * 1 + 1; omega
  | ⟨1, _⟩ =>
    show win0_3.index _ 1 * 1024 ≤ (i 1).val ∧ (i 1).val < win0_3.index _ 1 * 1024 + 1024
    rw [h1]; show ((i 0).val * 2 + (i 1).val / 1024) % 2 * 1024 ≤ (i 1).val ∧ (i 1).val < ((i 0).val * 2 + (i 1).val / 1024) % 2 * 1024 + 1024; omega
  | ⟨2, _⟩ =>
    show win0_3.index _ 2 * 64 ≤ (i 2).val ∧ (i 2).val < win0_3.index _ 2 * 64 + 64
    rw [h2]; omega

/-- The output array after the region: head-by-head attention of the three arrays the region finds. -/
theorem final (c : Dev nD) : (dats m 0 c).arrAt 3 cfg0.N
    = headsAttn (Ideal.ofBits .bf16 0x3E00#16) (V m c main_v3) (V m c main_v7) (V m c main_v11) :=
  (dats m 0 c).arrAt_eq_of_cover 3 _ (fun t _ => flushed_eq m c t) cover

end Cert.KernelIdeal.KValue

end
-- ==== Proof.KernelRun.lean ====
/-
  The kernel program's result array as one function of its three arguments.

  Before the region each argument [2, 2048, 1024] is narrowed (the identity on extended reals), viewed [2, 2048, 16, 64],
  transposed to [2, 16, 2048, 64] and flattened to [32, 2048, 64]: head array entry (16 b + h, s, e) is argument entry
  (b, s, 64 h + e). After the region the [32, 2048, 64] result goes the same way back: result entry (b, s, D) is region
  entry (16 b + D / 64, s, D % 64). Composed with what the region leaves (KernelArray.lean), entry (b, s, D) of the
  program's result is the "scale in the query, divide once" attention entry of Spec.lean.
-/
import proofs.«182169_j11029476016138_2_alg».proof.Proof.KernelArray
import Idealize.ShloMosaic.Lib.StableHlo.Run

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx
open Idealize.SL Idealize.SL.Sem Idealize.ShloMosaic.StableHlo
open Idealize.ShloMosaic.Pipeline (Dat Cfg Window)
open Cert.Attn (Arr headOf featOf colOf)

variable (m : (ℓ : Loc nD τ sig) → Buf (Elt Ideal) ℓ)

/-! ## Into heads -/

/-- Head array entry (g, s, e), g = 16 b + h, of an argument: entry (b, s, 64 h + e). -/
def toHeadsAt (x : Arr) (g : Fin 32) (s : Fin 2048) (e : Fin 64) : EReal :=
  x (ix3 (⟨g.val / 16, by have := g.isLt; omega⟩ : Fin 2) s (colOf ⟨g.val % 16, Nat.mod_lt _ (by decide)⟩ e))

def toHeads (x : Arr) : Heads := fun j => toHeadsAt x (j 0) (j 1) (j 2)

/-- Narrow, view as heads, transpose, flatten: read at an entry. -/
theorem toHeads_eq (x : Arr) :
    (shapeCast S32x2048x64 (transpose S2x16x2048x64 [0, 2, 1, 3]
        (shapeCast S2x2048x16x64 (truncf (F := Ideal) .bf16 x bitsLt_bf16_f32) shapeCasts_S2x2048x1024_S2x2048x16x64)
        transposes_S2x2048x16x64_S2x16x2048x64_0_2_1_3) shapeCasts_S2x16x2048x64_S32x2048x64 : Heads) = toHeads x := by
  funext j
  obtain ⟨g, s, e, rfl⟩ : ∃ (g : Fin 32) (s : Fin 2048) (e : Fin 64), j = ix3 g s e := ⟨j 0, j 1, j 2, eq_ix3 j⟩
  have := g.isLt; have := s.isLt; have := e.isLt
  refine (shapeCast_apply _ _ (ix3 g s e)
    (ix4 (⟨g.val / 16, by omega⟩ : Fin 2) (⟨g.val % 16, Nat.mod_lt _ (by decide)⟩ : Fin 16) s e) (by
      rw [Shape.rowMajor_val_four, Shape.rowMajor_val_three]
      show ((g.val / 16 * 16 + g.val % 16) * 2048 + s.val) * 64 + e.val = (g.val * 2048 + s.val) * 64 + e.val
      omega)).trans ?_
  refine (transpose_apply [0, 2, 1, 3] _ _
    (ix4 (⟨g.val / 16, by omega⟩ : Fin 2) (⟨g.val % 16, Nat.mod_lt _ (by decide)⟩ : Fin 16) s e)
    (ix4 (⟨g.val / 16, by omega⟩ : Fin 2) s (⟨g.val % 16, Nat.mod_lt _ (by decide)⟩ : Fin 16) e) (fun a => match a with
      | ⟨0, _⟩ => rfl | ⟨1, _⟩ => rfl | ⟨2, _⟩ => rfl | ⟨3, _⟩ => rfl)).trans ?_
  refine (shapeCast_apply _ _ _
    (ix3 (⟨g.val / 16, by omega⟩ : Fin 2) s (colOf ⟨g.val % 16, Nat.mod_lt _ (by decide)⟩ e)) (by
      rw [Shape.rowMajor_val_four, Shape.rowMajor_val_three]
      show (g.val / 16 * 2048 + s.val) * 1024 + (g.val % 16 * 64 + e.val) = ((g.val / 16 * 2048 + s.val) * 16 + g.val % 16) * 64 + e.val
      omega)).trans ?_
  rfl

/-- The three arrays the region is launched on are the three arguments split into heads. -/
theorem V_q (c : Dev nD) : (V m c main_v3 : Heads) = toHeads (m ((c : Thread nD τ).loc main_arg0)) := by
  refine Eq.trans ?_ (toHeads_eq _)
  show StableHlo.after hostOps0 (fun b => m (c, b)) (Proc.devRef .tc main_v3) = _
  after_results
  rfl
theorem V_k (c : Dev nD) : (V m c main_v7 : Heads) = toHeads (m ((c : Thread nD τ).loc main_arg1)) := by
  refine Eq.trans ?_ (toHeads_eq _)
  show StableHlo.after hostOps0 (fun b => m (c, b)) (Proc.devRef .tc main_v7) = _
  after_results
  rfl
theorem V_v (c : Dev nD) : (V m c main_v11 : Heads) = toHeads (m ((c : Thread nD τ).loc main_arg2)) := by
  refine Eq.trans ?_ (toHeads_eq _)
  show StableHlo.after hostOps0 (fun b => m (c, b)) (Proc.devRef .tc main_v11) = _
  after_results
  rfl

/-! ## Out of heads -/

/-- View as [2, 16, 2048, 64], transpose, merge the heads: read at an entry. -/
theorem fromHeads_apply (Y : Heads) (b : Fin 2) (s : Fin 2048) (D : Fin 1024) :
    (shapeCast S2x2048x1024 (transpose S2x2048x16x64 [0, 2, 1, 3]
        (shapeCast S2x16x2048x64 Y shapeCasts_S32x2048x64_S2x16x2048x64)
        transposes_S2x16x2048x64_S2x2048x16x64_0_2_1_3) shapeCasts_S2x2048x16x64_S2x2048x1024 : Arr) (ix3 b s D)
      = Y (ix3 (⟨b.val * 16 + D.val / 64, by have := b.isLt; have := D.isLt; omega⟩ : Fin 32) s (featOf D)) := by
  have := b.isLt; have := s.isLt; have := D.isLt
  refine (shapeCast_apply _ _ (ix3 b s D) (ix4 b s (headOf D) (featOf D)) (by
      rw [Shape.rowMajor_val_four, Shape.rowMajor_val_three]
      show ((b.val * 2048 + s.val) * 16 + D.val / 64) * 64 + D.val % 64 = (b.val * 2048 + s.val) * 1024 + D.val
      omega)).trans ?_
  refine (transpose_apply [0, 2, 1, 3] _ _ (ix4 b s (headOf D) (featOf D)) (ix4 b (headOf D) s (featOf D)) (fun a => match a with
      | ⟨0, _⟩ => rfl | ⟨1, _⟩ => rfl | ⟨2, _⟩ => rfl | ⟨3, _⟩ => rfl)).trans ?_
  exact shapeCast_apply _ _ _ _ (by
      rw [Shape.rowMajor_val_four, Shape.rowMajor_val_three]
      show ((b.val * 16 + D.val / 64) * 2048 + s.val) * 64 + D.val % 64 = ((b.val * 16 + D.val / 64) * 2048 + s.val) * 64 + D.val % 64
      rfl)

/-- The program's result after the lines that follow the region. -/
theorem tail_eq (c : Dev nD) :
    (Pipeline.afterTail₀ cfgs (dats m) 0 (V0 m) [hostOps1] c main_v15 : Arr)
      = shapeCast S2x2048x1024 (transpose S2x2048x16x64 [0, 2, 1, 3]
        (shapeCast S2x16x2048x64 (headsAttn (Ideal.ofBits .bf16 0x3E00#16) (V m c main_v3) (V m c main_v7) (V m c main_v11))
          shapeCasts_S32x2048x64_S2x16x2048x64)
        transposes_S2x16x2048x64_S2x2048x16x64_0_2_1_3) shapeCasts_S2x2048x16x64_S2x2048x1024 := by
  unfold Pipeline.afterTail₀
  show StableHlo.after hostOps1 _ (Proc.devRef .tc main_v15) = _
  after_results
  have hw : Pipeline.withArrays (cfgs 0).spec c (V0 m c) (fun w => (dats m 0 c).arrAt w (cfgs 0).N) (Proc.tc.devRef main_v12)
      = headsAttn (Ideal.ofBits .bf16 0x3E00#16) (V m c main_v3) (V m c main_v7) (V m c main_v11) :=
    (Pipeline.withArrays_arr spec0 launch0.win.arr_inj c _ _ 3).trans (final m c)
  rw [hw]
  rfl

/-! ## The program's result -/

/-- Head array entry (16 b + D / 64, s', e) of an argument is its entry (b, s', 64 (D / 64) + e). -/
theorem toHeads_at (x : Arr) (b : Fin 2) (D : Fin 1024) (s' : Fin 2048) (e : Fin 64) :
    toHeads x (ix3 (⟨b.val * 16 + D.val / 64, by have := b.isLt; have := D.isLt; omega⟩ : Fin 32) s' e)
      = x (ix3 b s' (colOf (headOf D) e)) := by
  have := b.isLt; have := D.isLt
  show x (ix3 (⟨(b.val * 16 + D.val / 64) / 16, _⟩ : Fin 2) s' (colOf ⟨(b.val * 16 + D.val / 64) % 16, _⟩ e)) = _
  have h1 : (⟨(b.val * 16 + D.val / 64) / 16, by omega⟩ : Fin 2) = b := Fin.ext (by show (b.val * 16 + D.val / 64) / 16 = b.val; omega)
  have h2 : (⟨(b.val * 16 + D.val / 64) % 16, Nat.mod_lt _ (by decide)⟩ : Fin 16) = headOf D :=
    Fin.ext (by show (b.val * 16 + D.val / 64) % 16 = D.val / 64; omega)
  rw [h1, h2]

/-- The result array after the whole program: the "scale in the query, divide once" attention of the arguments. -/
theorem kernel_result (c : Dev nD) :
    (Pipeline.afterTail₀ cfgs (dats m) 0 (V0 m) [hostOps1] c main_v15 : Arr)
      = Cert.Attn.attnDivideOnce (Ideal.ofBits .bf16 0x3E00#16) (m ((c : Thread nD τ).loc main_arg0))
          (m ((c : Thread nD τ).loc main_arg1)) (m ((c : Thread nD τ).loc main_arg2)) := by
  rw [tail_eq]
  funext i
  obtain ⟨b, s, D, rfl⟩ : ∃ (b : Fin 2) (s : Fin 2048) (D : Fin 1024), i = ix3 b s D := ⟨i 0, i 1, i 2, eq_ix3 i⟩
  refine (fromHeads_apply _ b s D).trans ?_
  show headsEntry _ (V m c main_v3) (V m c main_v7) (V m c main_v11) _ s (featOf D)
    = Cert.Attn.entryDivideOnce _ _ _ _ b s D
  unfold headsEntry Cert.Attn.entryDivideOnce
  rw [V_q, V_k, V_v]
  simp only [toHeads_at]
  have hD : colOf (headOf D) (featOf D) = D := Fin.ext (by show D.val / 64 * 64 + D.val % 64 = D.val; omega)
  rw [hD]

/-- The program's run, read: the result array at that attention, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v15)
          = Cert.Attn.attnDivideOnce (Ideal.ofBits .bf16 0x3E00#16) (m ((c.tc : Thread nD τ).loc main_arg0))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v15 (Pipeline.mem_restRefs_of main_v15 (by decide) (by decide))).trans (kernel_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefRead.lean ====
/-
  The reference's result array, read entry by entry.

  The reference splits the 1024 columns into 16 heads of 64 features (a reshape and a transpose), forms for each
  (batch, head) the 2048 × 2048 products of query and key rows over the 64 features and multiplies them by 1 / √64, takes
  the softmax of each row — the row maximum (a maximum-reduce from -∞, then once more a maximum against -∞), the
  exponentials of the differences, their sum from 0, the quotients —, multiplies the weights into the value rows, and
  merges the heads back. Read at entry (b, s, D), with h = D / 64 the head and d = D % 64 the feature, this is the
  "scale on the product, normalise first" entry of Spec.lean.
-/
import proofs.«182169_j11029476016138_2_alg».proof.Proof.Gen.ReferenceIdeal.Read
import proofs.«182169_j11029476016138_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attn (Arr headOf featOf colOf)

/-- The scale the reference computes: 1 / √64. -/
abbrev cR : EReal := Ideal.div (Ideal.ofBits .f32 0x3F800000#32) (Ideal.sqrt (Ideal.ofBits .f32 0x42800000#32))

variable (x0 x1 x2 : Arr)

/-- The scores of query row s of head h of batch b. -/
def sc (b : Fin 2) (h : Fin 16) (s : Fin 2048) : Fin 2048 → EReal :=
  Cert.Attn.scoreScaledProduct cR (fun e : Fin 64 => x0 (ix3 b s (colOf h e))) (fun (j : Fin 2048) (e : Fin 64) => x1 (ix3 b j (colOf h e)))

/-- Their maximum, as the reference takes it. -/
def mx (b : Fin 2) (h : Fin 16) (s : Fin 2048) : EReal := max ⊥ (Finset.univ.fold max ⊥ (sc x0 x1 b h s))

/-! ## The split into heads -/

/-- Entry (b, h, s, e) of an argument split into heads is entry (b, s, 64 h + e) of the argument. -/
theorem heads_index (b : Fin 2) (h : Fin 16) (s : Fin 2048) (e : Fin 64) :
    idx_main_v0 (idx_main_v1 (ix4 b h s e)) = ix3 b s (colOf h e) := by
  funext a
  apply Fin.ext
  have := b.isLt; have := h.isLt; have := s.isLt; have := e.isLt
  match a with
  | ⟨0, _⟩ => show (((b.val * 2048 + s.val) * 16 + h.val) * 64 + e.val) / 2097152 = b.val; omega
  | ⟨1, _⟩ => show (((b.val * 2048 + s.val) * 16 + h.val) * 64 + e.val) / 1024 % 2048 = s.val; omega
  | ⟨2, _⟩ => show (((b.val * 2048 + s.val) * 16 + h.val) * 64 + e.val) % 1024 = h.val * 64 + e.val; omega

theorem q_apply (b : Fin 2) (h : Fin 16) (s : Fin 2048) (e : Fin 64) :
    val_main_v1 (F := Ideal) x0 (ix4 b h s e) = x0 (ix3 b s (colOf h e)) := by
  rw [val_main_v1_apply, val_main_v0_apply]
  exact congrArg x0 (heads_index b h s e)

theorem k_apply (b : Fin 2) (h : Fin 16) (s : Fin 2048) (e : Fin 64) :
    val_main_v3 (F := Ideal) x1 (ix4 b h s e) = x1 (ix3 b s (colOf h e)) := by
  rw [val_main_v3_apply, val_main_v2_apply]
  exact congrArg x1 (heads_index b h s e)

theorem v_apply (b : Fin 2) (h : Fin 16) (s : Fin 2048) (e : Fin 64) :
    val_main_v5 (F := Ideal) x2 (ix4 b h s e) = x2 (ix3 b s (colOf h e)) := by
  rw [val_main_v5_apply, val_main_v4_apply]
  exact congrArg x2 (heads_index b h s e)

/-! ## The scores -/

theorem scale_apply (i : S2x16x2048x2048.Idx) : val_main_v9 (F := Ideal) i = cR :=
  (val_main_v9_apply i).trans rfl

theorem scores_apply (b : Fin 2) (h : Fin 16) (s k : Fin 2048) :
    val_main_v10 (F := Ideal) x0 x1 (ix4 b h s k) = sc x0 x1 b h s k := by
  rw [val_main_v10_apply, val_main_v8_apply, scale_apply]
  unfold sc Cert.Attn.scoreScaledProduct
  show (∑ e : Fin 64, _) * cR = (∑ e : Fin 64, _) * cR
  refine congrArg (· * cR) (Finset.sum_congr rfl fun e _ => ?_)
  rw [show lidx_main_v8 (ix4 b h s k) e = ix4 b h s e from funext fun a => Fin.ext (by
      match a with | ⟨0, _⟩ => rfl | ⟨1, _⟩ => rfl | ⟨2, _⟩ => rfl | ⟨3, _⟩ => rfl),
    show ridx_main_v8 (ix4 b h s k) e = ix4 b h k e from funext fun a => Fin.ext (by
      match a with | ⟨0, _⟩ => rfl | ⟨1, _⟩ => rfl | ⟨2, _⟩ => rfl | ⟨3, _⟩ => rfl),
    q_apply, k_apply]

/-! ## The row maximum -/

theorem rowMax_apply (b : Fin 2) (h : Fin 16) (s : Fin 2048) :
    val_main_v13 (F := Ideal) x0 x1 (ix3 b h s) = mx x0 x1 b h s := by
  rw [val_main_v13_apply, val_main_v12_apply, val_main_cst_2_apply]
  unfold val_main_v11 mx
  have hr : S2x16x2048x2048.Reduces [3] S2x16x2048 := by decide
  rw [Host.reduce_eq_fold_single FloatOps.maximumf _ _ reducesTo_S2x16x2048x2048_S2x16x2048_d3 hr h_S_]
  have hf : (val_main_v10 (F := Ideal) x0 x1 ∘ hr.lift (ix3 b h s)) = sc x0 x1 b h s := funext fun k => by
    show val_main_v10 (F := Ideal) x0 x1 (hr.lift (ix3 b h s) k) = _
    rw [show hr.lift (ix3 b h s) k = ix4 b h s (⟨k.val, k.isLt⟩ : Fin 2048) from funext fun a => Fin.ext (by
      match a with | ⟨0, _⟩ => rfl | ⟨1, _⟩ => rfl | ⟨2, _⟩ => rfl | ⟨3, _⟩ => rfl)]
    exact scores_apply x0 x1 b h s _
  have hb : (FloatOps.ofBits (F := Ideal) .f32 0xFF800000#32 : EReal) = ⊥ := Cert.Attn.ofBits_negInf
  have hi : (val_main_cst_1 (F := Ideal) (Shape.Idx.first h_S_) : EReal) = ⊥ := hb
  show max (FloatOps.ofBits (F := Ideal) .f32 0xFF800000#32 : EReal) _ = _
  rw [hb]
  exact congrArg (max ⊥) (congrArg₂ (fun (z : EReal) (f : Fin 2048 → EReal) => (Finset.univ : Finset (Fin 2048)).fold max z f) hi hf)

/-! ## The weights -/

theorem exp_apply (b : Fin 2) (h : Fin 16) (s k : Fin 2048) :
    val_main_v17 (F := Ideal) x0 x1 (ix4 b h s k) = Ideal.exp (sc x0 x1 b h s k - mx x0 x1 b h s) := by
  rw [val_main_v17_apply, val_main_v16_apply, scores_apply, val_main_v15_apply, val_main_v14_apply,
    show idx_main_v14 (idx_main_v15 (ix4 b h s k)) = ix3 b h s from funext fun a => Fin.ext (by
      match a with | ⟨0, _⟩ => rfl | ⟨1, _⟩ => rfl | ⟨2, _⟩ => rfl),
    rowMax_apply]
  rfl

theorem rowSum_apply (b : Fin 2) (h : Fin 16) (s : Fin 2048) :
    val_main_v18 (F := Ideal) x0 x1 (ix3 b h s) = 0 + ∑ k : Fin 2048, Ideal.exp (sc x0 x1 b h s k - mx x0 x1 b h s) := by
  rw [val_main_v18_apply]
  refine congrArg₂ (· + ·) ?_ (Finset.sum_congr rfl fun k _ => ?_)
  · exact Ideal.ofBits_zero_f32
  · rw [show idx_main_v18 (ix3 b h s) k = ix4 b h s k from funext fun a => Fin.ext (by
      match a with | ⟨0, _⟩ => rfl | ⟨1, _⟩ => rfl | ⟨2, _⟩ => rfl | ⟨3, _⟩ => rfl)]
    exact exp_apply x0 x1 b h s k

theorem weight_apply (b : Fin 2) (h : Fin 16) (s k : Fin 2048) :
    val_main_v21 (F := Ideal) x0 x1 (ix4 b h s k)
      = Ideal.div (Ideal.exp (sc x0 x1 b h s k - mx x0 x1 b h s)) (0 + ∑ k' : Fin 2048, Ideal.exp (sc x0 x1 b h s k' - mx x0 x1 b h s)) := by
  rw [val_main_v21_apply, exp_apply, val_main_v20_apply, val_main_v19_apply,
    show idx_main_v19 (idx_main_v20 (ix4 b h s k)) = ix3 b h s from funext fun a => Fin.ext (by
      match a with | ⟨0, _⟩ => rfl | ⟨1, _⟩ => rfl | ⟨2, _⟩ => rfl),
    rowSum_apply]
  rfl

/-! ## The result -/

theorem out_apply (b : Fin 2) (h : Fin 16) (s : Fin 2048) (d : Fin 64) :
    val_main_v22 (F := Ideal) x0 x1 x2 (ix4 b h s d)
      = Cert.Attn.normaliseFirst (sc x0 x1 b h s) (fun j : Fin 2048 => x2 (ix3 b j (colOf h d))) := by
  rw [val_main_v22_apply]
  unfold Cert.Attn.normaliseFirst
  refine Finset.sum_congr rfl fun k _ => ?_
  rw [show lidx_main_v22 (ix4 b h s d) k = ix4 b h s k from funext fun a => Fin.ext (by
      match a with | ⟨0, _⟩ => rfl | ⟨1, _⟩ => rfl | ⟨2, _⟩ => rfl | ⟨3, _⟩ => rfl),
    show ridx_main_v22 (ix4 b h s d) k = ix4 b h k d from funext fun a => Fin.ext (by
      match a with | ⟨0, _⟩ => rfl | ⟨1, _⟩ => rfl | ⟨2, _⟩ => rfl | ⟨3, _⟩ => rfl),
    weight_apply, v_apply]
  rfl

/-- Entry (b, s, D) of the merged result is entry (b, D / 64, s, D % 64) of the per-head result. -/
theorem merge_index (b : Fin 2) (s : Fin 2048) (D : Fin 1024) :
    idx_main_v23 (idx_main_v24 (ix3 b s D)) = ix4 b (headOf D) s (featOf D) := by
  funext a
  apply Fin.ext
  have := b.isLt; have := s.isLt; have := D.isLt
  match a with
  | ⟨0, _⟩ => show ((b.val * 2048 + s.val) * 1024 + D.val) / 2097152 = b.val; omega
  | ⟨1, _⟩ => show ((b.val * 2048 + s.val) * 1024 + D.val) / 64 % 16 = D.val / 64; omega
  | ⟨2, _⟩ => show ((b.val * 2048 + s.val) * 1024 + D.val) / 1024 % 2048 = s.val; omega
  | ⟨3, _⟩ => show ((b.val * 2048 + s.val) * 1024 + D.val) % 64 = D.val % 64; omega

/-- The reference's result array is the "scale on the product, normalise first" attention of its arguments. -/
theorem result_eq : val_main_v24 (F := Ideal) x0 x1 x2 = Cert.Attn.attnNormaliseFirst cR x0 x1 x2 := by
  funext i
  obtain ⟨b, s, D, rfl⟩ : ∃ (b : Fin 2) (s : Fin 2048) (D : Fin 1024), i = ix3 b s D := ⟨i 0, i 1, i 2, eq_ix3 i⟩
  rw [val_main_v24_apply, val_main_v23_apply, merge_index, out_apply]
  show _ = Cert.Attn.entryNormaliseFirst cR x0 x1 x2 b s D
  unfold Cert.Attn.entryNormaliseFirst Cert.Attn.rowNormaliseFirst sc
  have hD : colOf (headOf D) (featOf D) = D := Fin.ext (by show D.val / 64 * 64 + D.val % 64 = D.val; omega)
  rw [hD]

end Cert.ReferenceIdeal.RefValue

end
-- ==== Proof.Finite.lean ====
/-
  The precondition read back: every entry of the three arguments is a real number.

  The precondition is the conjunction of three "all entries satisfy |x| < +∞". An extended real whose absolute
  value max x (−x) is below +∞ is neither +∞ nor −∞, hence a real.
-/
import proofs.«182169_j11029476016138_2_alg».proof.Pre_finite_inputs
import proofs.«182169_j11029476016138_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

instance : Subsingleton S_.Idx := ⟨fun a b => funext fun d => d.elim0⟩

/-- The pattern of +∞ denotes the top of the extended reals. -/
theorem ofBits_posInf : Ideal.ofBits .f32 0x7F800000#32 = (⊤ : EReal) := by
  simp [Ideal.ofBits, Ideal.ieee]

/-- An extended real whose absolute value compares below +∞ is a real. -/
theorem real_of_abs_lt (x : EReal)
    (h : Ideal.cmp .olt (max x (-x)) (Ideal.ofBits .f32 0x7F800000#32) = 1#1) : ∃ r : ℝ, x = (r : EReal) := by
  rw [ofBits_posInf] at h
  have hlt : max x (-x) < ⊤ := by
    by_contra hn
    simp [Ideal.cmp, hn] at h
  induction x using EReal.rec with
  | bot => simp at hlt
  | top => simp at hlt
  | coe r => exact ⟨r, rfl⟩

/-- Under the precondition each argument is an array of reals. -/
theorem reals_of_pre [Facts] (a0 a1 a2 : FVec Ideal S2x2048x1024 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

end Cert.Pre_finite_inputs.Finite

end
-- ==== Proof.lean ====
/-
  Softmax attention with 16 heads of 64 features over [2, 2048, 1024] queries, keys and values: a pipelined kernel against
  the plain array program, equal entry by entry on finite inputs, as extended reals.

  Both programs compute, for batch b, position s and column D (head h = D / 64, feature d = D % 64),

      out (b, s, D) = ∑ j, softmax_j (score (s, j)) · v (b, j, D),     score (s, j) = (1 / 8) · ∑ e, q (b, s, 64 h + e) · k (b, j, 64 h + e),

  the sums over the 2048 positions j and the 64 features e of the head. They arrange it differently:

  * the kernel folds the scale 0.125 into the query entries before the product, subtracts the row maximum, and divides the
    weighted sum of the values by the sum of the exponentials once, at the end; its 64 grid points each handle one head and
    one half of the query positions, and the head split and merge around it are reshapes and transposes
    (Proof/Payload.lean: one block entry; Proof/KernelArray.lean: the blocks tile the array; Proof/KernelRun.lean: the
    reshapes around the region and the program's run);
  * the reference multiplies the products by 1 / √64, and normalises the exponentials by their sum before multiplying them into
    the values (Proof/RefRead.lean).

  1 / √64 is exactly one eighth, which is exactly the kernel's 0.125. On real inputs the scores agree because a factor
  moves across a finite sum of reals; the row maximum of finitely many reals is a real, so every exponential is a positive
  real and so is their sum; and dividing a finite sum by a nonzero real is dividing each term (Proof/Softmax.lean,
  Proof/Spec.lean). These laws fail at the infinities, so the precondition — every input entry finite, hence a real
  (Proof/Finite.lean) — is used. The idealization rewrote nothing, so the preservation claim is trivial.
-/
import proofs.«182169_j11029476016138_2_alg».proof.Defs
import proofs.«182169_j11029476016138_2_alg».proof.Proof.Gen.Kernel
import proofs.«182169_j11029476016138_2_alg».proof.Proof.Gen.Kernel.Skeleton
import proofs.«182169_j11029476016138_2_alg».proof.Proof.Gen.Kernel.Launch
import proofs.«182169_j11029476016138_2_alg».proof.Proof.Gen.Kernel.Points
import proofs.«182169_j11029476016138_2_alg».proof.Proof.Gen.Kernel.Frame
import proofs.«182169_j11029476016138_2_alg».proof.Proof.Gen.KernelIdeal
import proofs.«182169_j11029476016138_2_alg».proof.Proof.Gen.KernelIdeal.Skeleton
import proofs.«182169_j11029476016138_2_alg».proof.Proof.Gen.KernelIdeal.Launch
import proofs.«182169_j11029476016138_2_alg».proof.Proof.Gen.KernelIdeal.Points
import proofs.«182169_j11029476016138_2_alg».proof.Proof.Gen.KernelIdeal.Frame
import proofs.«182169_j11029476016138_2_alg».proof.Proof.Gen.ReferenceIdeal
import proofs.«182169_j11029476016138_2_alg».proof.Proof.Gen.Pre_finite_inputs
import proofs.«182169_j11029476016138_2_alg».proof.Proof.Gen.ReferenceIdeal.Run
import proofs.«182169_j11029476016138_2_alg».proof.Proof.Gen.ReferenceIdeal.Read
import proofs.«182169_j11029476016138_2_alg».proof.Proof.KernelRun
import proofs.«182169_j11029476016138_2_alg».proof.Proof.RefRead
import proofs.«182169_j11029476016138_2_alg».proof.Proof.Finite
import Idealize.ShloMosaic.Adequacy
import Idealize.ShloMosaic.Init

noncomputable section

namespace Cert.Proof

open Idealize.ShloMosaic Idealize.SL.Sem

/-- The three programs run and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- On arrays of reals the reference's arrangement with its scale 1 / √64 and the kernel's with its 0.125 are one array. -/
theorem arrangements_agree (q k v : Cert.Attn.Arr)
    (hq : ∀ i, ∃ r : ℝ, q i = (r : EReal)) (hk : ∀ i, ∃ r : ℝ, k i = (r : EReal)) (hv : ∀ i, ∃ r : ℝ, v i = (r : EReal)) :
    Cert.Attn.attnNormaliseFirst Cert.ReferenceIdeal.RefValue.cR q k v
      = Cert.Attn.attnDivideOnce (Ideal.ofBits .bf16 0x3E00#16) q k v := by
  choose qr hqr using hq
  choose kr hkr using hk
  choose vr hvr using hv
  obtain rfl : q = fun i => (qr i : EReal) := funext hqr
  obtain rfl : k = fun i => (kr i : EReal) := funext hkr
  obtain rfl : v = fun i => (vr i : EReal) := funext hvr
  rw [show Cert.ReferenceIdeal.RefValue.cR = ((1 / 8 : ℝ) : EReal) from Cert.Attn.one_div_sqrt_sixtyFour, Cert.Attn.ofBits_eighth]
  exact (Cert.Attn.attn_eq (1 / 8) qr kr vr).symm

/-- From memories that agree on the three arguments, finite, both idealized programs end with the same result array. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v24_eq,
    Cert.ReferenceIdeal.RefValue.result_eq]
  obtain ⟨hq, hk, hv⟩ := Cert.Pre_finite_inputs.Finite.reals_of_pre _ _ _ (hpre c)
  exact arrangements_agree _ _ _ hq hk hv

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
